-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg9 : FVec F S512x512 .f32) (main_arg10 : FVec F S512 .f32) (main_arg11 : FVec F S512x256 .f32) (main_arg12 : FVec F S256 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg6 : FVec F S512 .f32) (main_arg7 : FVec F S512x512 .f32) (main_arg8 : FVec F S512 .f32) (main_arg9 : FVec F S512x512 .f32) (main_arg10 : FVec F S512 .f32) (main_arg11 : FVec F S512x256 .f32) (main_arg12 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x256 .f32) (main_arg12 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S50000x1 : Shape := ⟨2, ![50000, 1]⟩
abbrev S512x1 : Shape := ⟨2, ![512, 1]⟩
abbrev S1x256 : Shape := ⟨2, ![1, 256]⟩

abbrev nBuf : Space → Nat
  | .hbm => 68
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x512, .bf16⟩
  | .hbm, ⟨31, _⟩ => ⟨S512x512, .bf16⟩
  | .hbm, ⟨32, _⟩ => ⟨S512x512, .bf16⟩
  | .hbm, ⟨33, _⟩ => ⟨S512x512, .bf16⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S50000x512, .f32⟩
  | .hbm, ⟨39, _⟩ => ⟨S_, .f32⟩
  | .hbm, ⟨40, _⟩ => ⟨S512x512, .f32⟩
  | .hbm, ⟨41, _⟩ => ⟨S50000x1, .i32⟩
  | .hbm, ⟨42, _⟩ => ⟨S512x512, .f32⟩
  | .hbm, ⟨43, _⟩ => ⟨S_, .f32⟩
  | .hbm, ⟨44, _⟩ => ⟨S50000x1, .f32⟩
  | .hbm, ⟨45, _⟩ => ⟨S_, .f32⟩
  | .hbm, ⟨46, _⟩ => ⟨S512x1, .f32⟩
  | .hbm, ⟨47, _⟩ => ⟨S50000x1, .i32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S512x512, .f32⟩
  | .hbm, ⟨53, _⟩ => ⟨S512x512, .f32⟩
  | .hbm, ⟨54, _⟩ => ⟨S512x256, .f32⟩
  | .hbm, ⟨55, _⟩ => ⟨S1x256, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S512x1, .f32⟩
  | .hbm, ⟨65, _⟩ => ⟨S512x1, .f32⟩
  | .hbm, ⟨66, _⟩ => ⟨S512x256, .f32⟩
  | .hbm, ⟨67, _⟩ => ⟨S512x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S2000x512, .f32⟩
  | .local _ .vmem, ⟨13, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_call0_cst : Ref sig .tc := ⟨.hbm, 59, rfl⟩
abbrev main_call0_v1 : Ref sig .tc := ⟨.hbm, 60, rfl⟩
abbrev main_call0_v2 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x512_S2000x512_0_0 : ∀ a, (![0, 0] : Fin 2 → Nat) a + S2000x512.size a ≤ S2000x512.size a
  h_S2000x512 : 0 < S2000x512.numel
  bcast_S_S512x512 : S_.BroadcastsInDim S512x512 (![] : Fin 0 → Fin S512x512.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x512_S2000x512_1_0_0_1_n_n_wf : DotDims.WF S2000x512 S512x512 S2000x512 [1] [0] [0] [1] [] []
  scatter_S512x512_S50000x1_S50000x512_1_0_0_1_wf : ScatterDims.WF S512x512 S50000x1 S50000x512 [1] [0] [0] 1
  scatter_S512x1_S50000x1_S50000x1_1_0_0_1_wf : ScatterDims.WF S512x1 S50000x1 S50000x1 [1] [0] [0] 1
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x512.size a ≤ S50000x512.size a
  hwx0_10 : ∀ i : grid0.Coords, EltTy.bits .f32 = 32 ∨ (Rect.block (s := S50000x512) S2000x512.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S512x512_S50000x1_S50000x512_1_0_0_1 : ScatterDims S512x512 S50000x1 S50000x512 where
  updateWindowDims := [1]
  insertedWindowDims := [0]
  scatterDimsToOperandDims := [0]
  indexVectorDim := 1
  wf := scatter_S512x512_S50000x1_S50000x512_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S2000x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩
abbrev S50000x1 : Shape := ⟨2, ![50000, 1]⟩
abbrev S512x1 : Shape := ⟨2, ![512, 1]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x512, .f32⟩
  | .hbm, ⟨35, _⟩ => ⟨S1x512, .f32⟩
  | .hbm, ⟨36, _⟩ => ⟨S50000x512, .f32⟩
  | .hbm, ⟨37, _⟩ => ⟨S50000x512, .f32⟩
  | .hbm, ⟨38, _⟩ => ⟨S_, .f32⟩
  | .hbm, ⟨39, _⟩ => ⟨S50000x512, .f32⟩
  | .hbm, ⟨40, _⟩ => ⟨S50000x512, .i1⟩
  | .hbm, ⟨41, _⟩ => ⟨S_, .f32⟩
  | .hbm, ⟨42, _⟩ => ⟨S50000x512, .f32⟩
  | .hbm, ⟨43, _⟩ => ⟨S50000x512, .f32⟩
  | .hbm, ⟨44, _⟩ => ⟨S50000x512, .f32⟩
  | .hbm, ⟨45, _⟩ => ⟨S50000x512, .f32⟩
  | .hbm, ⟨46, _⟩ => ⟨S1x512, .f32⟩
  | .hbm, ⟨47, _⟩ => ⟨S50000x512, .f32⟩
  | .hbm, ⟨48, _⟩ => ⟨S50000x512, .f32⟩
  | .hbm, ⟨49, _⟩ => ⟨S_, .f32⟩
  | .hbm, ⟨50, _⟩ => ⟨S50000x512, .f32⟩
  | .hbm, ⟨51, _⟩ => ⟨S50000x512, .f32⟩
  | .hbm, ⟨52, _⟩ => ⟨S50000x512, .f32⟩
  | .hbm, ⟨53, _⟩ => ⟨S1x512, .f32⟩
  | .hbm, ⟨54, _⟩ => ⟨S50000x512, .f32⟩
  | .hbm, ⟨55, _⟩ => ⟨S50000x512, .f32⟩
  | .hbm, ⟨56, _⟩ => ⟨S_, .f32⟩
  | .hbm, ⟨57, _⟩ => ⟨S50000x512, .f32⟩
  | .hbm, ⟨58, _⟩ => ⟨S50000x512, .f32⟩
  | .hbm, ⟨59, _⟩ => ⟨S50000x512, .f32⟩
  | .hbm, ⟨60, _⟩ => ⟨S1x512, .f32⟩
  | .hbm, ⟨61, _⟩ => ⟨S50000x512, .f32⟩
  | .hbm, ⟨62, _⟩ => ⟨S50000x512, .f32⟩
  | .hbm, ⟨63, _⟩ => ⟨S_, .f32⟩
  | .hbm, ⟨64, _⟩ => ⟨S512x512, .f32⟩
  | .hbm, ⟨65, _⟩ => ⟨S50000x1, .i32⟩
  | .hbm, ⟨66, _⟩ => ⟨S512x512, .f32⟩
  | .hbm, ⟨67, _⟩ => ⟨S_, .f32⟩
  | .hbm, ⟨68, _⟩ => ⟨S50000x1, .f32⟩
  | .hbm, ⟨69, _⟩ => ⟨S_, .f32⟩
  | .hbm, ⟨70, _⟩ => ⟨S512x1, .f32⟩
  | .hbm, ⟨71, _⟩ => ⟨S50000x1, .i32⟩
  | .hbm, ⟨72, _⟩ => ⟨S512x1, .f32⟩
  | .hbm, ⟨73, _⟩ => ⟨S_, .f32⟩
  | .hbm, ⟨74, _⟩ => ⟨S512x1, .f32⟩
  | .hbm, ⟨75, _⟩ => ⟨S512x1, .f32⟩
  | .hbm, ⟨76, _⟩ => ⟨S512x512, .f32⟩
  | .hbm, ⟨77, _⟩ => ⟨S512x512, .f32⟩
  | .hbm, ⟨78, _⟩ => ⟨S512x256, .f32⟩
  | .hbm, ⟨79, _⟩ => ⟨S1x256, .f32⟩
  | .hbm, ⟨80, _⟩ => ⟨S512x256, .f32⟩
  | .hbm, ⟨81, _⟩ => ⟨S512x256, .f32⟩
  | .hbm, ⟨82, _⟩ => ⟨S512x256, .f32⟩
  | .hbm, ⟨83, _⟩ => ⟨S_, .f32⟩
  | .hbm, ⟨84, _⟩ => ⟨S512, .f32⟩
  | .hbm, ⟨85, _⟩ => ⟨S512x1, .f32⟩
  | .hbm, ⟨86, _⟩ => ⟨S512x1, .f32⟩
  | .hbm, ⟨87, _⟩ => ⟨S_, .f32⟩
  | .hbm, ⟨88, _⟩ => ⟨S512x1, .f32⟩
  | .hbm, ⟨89, _⟩ => ⟨S512x1, .f32⟩
  | .hbm, ⟨90, _⟩ => ⟨S512x256, .f32⟩
  | .hbm, ⟨91, _⟩ => ⟨S512x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call3_v0 : Ref sig .tc := ⟨.hbm, 82, rfl⟩
abbrev main_call3_cst : Ref sig .tc := ⟨.hbm, 83, rfl⟩
abbrev main_call3_v1 : Ref sig .tc := ⟨.hbm, 84, rfl⟩
abbrev main_call3_v2 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S_S512x512 : S_.BroadcastsInDim S512x512 (![] : Fin 0 → Fin S512x512.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x512_S50000x512_1_0_0_1_n_n_wf : DotDims.WF S50000x512 S512x512 S50000x512 [1] [0] [0] [1] [] []
  scatter_S512x512_S50000x1_S50000x512_1_0_0_1_wf : ScatterDims.WF S512x512 S50000x1 S50000x512 [1] [0] [0] 1
  scatter_S512x1_S50000x1_S50000x1_1_0_0_1_wf : ScatterDims.WF S512x1 S50000x1 S50000x1 [1] [0] [0] 1
  dot_S512x512_S512x256_S512x256_1_0_0_1_n_n_wf : DotDims.WF S512x512 S512x256 S512x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S512x512_S50000x1_S50000x512_1_0_0_1 : ScatterDims S512x512 S50000x1 S50000x512 where
  updateWindowDims := [1]
  insertedWindowDims := [0]
  scatterDimsToOperandDims := [0]
  indexVectorDim := 1
  wf := scatter_S512x512_S50000x1_S50000x512_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

class Facts : Prop extends Facts₀ where

variable [Facts]
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibDenseLayer.lean ====
/-
  Dense layers of a perceptron, row by row, on extended reals — general in the sizes.

  `lin h w b j = ∑ k, h k * w k j + b j` is one dense layer on a row `h` of `K` features with a weight table `w` (entry
  `w k j`: from input feature `k` to output feature `j`) and a bias row `b`; `act z v j = max (v j) z` the positive part
  against the zero word; `first` a two-operand first layer `(a·wl + bl) + x·wr` (a neighbourhood term and a root term).
  The lemmas read one layer of a BLOCK of rows at a row `p` and an output feature `q`, in the two spellings programs use:
  the kernel's — a matrix product `[M, K]·[K, N]` into a zero accumulator, the operands narrowed to a shorter float format
  first (the identity on extended reals) and the table under an identity shape cast, plus the bias row `[1, N]` laid down the
  `M` rows (`kernel_lin_apply`, `kernel_first_apply`, `kernel_act_apply`) — and the host's — `dot_general` of the same two
  arrays plus the bias vector `[N]` laid along every row by two `broadcast_in_dim`s (`host_lin_apply`, `host_first_apply`,
  `host_act_apply`). Each reads as `lin` / `first` / `act` of row `p`, so a kernel that works on blocks of rows and a
  reference that works on the whole array meet layer by layer (`lin_congr`, `act_congr` carry an equation of rows through a
  layer). The dimension numbers are any that contract the left columns with the right rows and keep the left rows and the
  right columns in place: the six hypotheses are read off a printed record by `rfl` and two short unfoldings.
-/
import proofs.«120022_j45045617000801_1_alg».proof.Proof.LibDenseRows

noncomputable section

namespace Cert.DenseLayer

open Idealize.ShloMosaic Idealize.ShloMosaic.ValueIdx Cert.DenseRows
open scoped BigOperators

/-! ## The layers on one row -/

/-- One dense layer on a row: output feature `j` is `∑ k, h k * w k j + b j`. -/
def lin {K N : ℕ} (h : Fin K → EReal) (w : Fin K → Fin N → EReal) (b : Fin N → EReal) (j : Fin N) : EReal :=
  (∑ k : Fin K, h k * w k j) + b j

/-- The positive part of every feature against the word `z` (the programs' zero). -/
def act {N : ℕ} (z : EReal) (v : Fin N → EReal) (j : Fin N) : EReal := max (v j) z

/-- The first layer: the dense layer of the averaged neighbour row `a` (with bias) plus the bias-free product of the node's own
    row `x` with the table `wr`, grouped as `(a·wl + bl) + x·wr`. -/
def first {K N : ℕ} (a x : Fin K → EReal) (wl : Fin K → Fin N → EReal) (bl : Fin N → EReal) (wr : Fin K → Fin N → EReal)
    (j : Fin N) : EReal :=
  lin a wl bl j + ∑ k : Fin K, x k * wr k j

/-- A dense layer depends on its input row only through the row's entries. -/
theorem lin_congr {K N : ℕ} {h h' : Fin K → EReal} (w : Fin K → Fin N → EReal) (b : Fin N → EReal) (j : Fin N)
    (e : ∀ k, h k = h' k) : lin h w b j = lin h' w b j := by rw [funext e]

/-- So does the positive part. -/
theorem act_congr {N : ℕ} (z : EReal) {v v' : Fin N → EReal} (j : Fin N) (e : ∀ k, v k = v' k) :
    act z v j = act z v' j := by rw [funext e]

/-! ## One layer of a block of rows, read at a row and an output feature -/

/-- The kernel's dense layer at `(p, q)`. -/
theorem kernel_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨2, ![1, N]⟩ .f32)
    (ht : FTy.bf16.bits < FTy.f32.bits)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (matmul D none (truncf .bf16 h ht) (truncf .bf16 (shapeCast ⟨2, ![K, N]⟩ w hcw) ht)
        (constant (F := Ideal) ⟨2, ![M, N]⟩ .f32 0x00000000#32))
      (broadcastTo ⟨2, ![M, N]⟩ (shapeCast ⟨2, ![1, N]⟩ b hcb) hb) (ix2 p q)
      = lin (fun k => h (ix2 p k)) (fun k j => w (ix2 k j)) (fun j => b (ix2 (0 : Fin 1) j)) q := by
  show matmul D none (truncf .bf16 h ht) (truncf .bf16 (shapeCast ⟨2, ![K, N]⟩ w hcw) ht)
        (constant (F := Ideal) ⟨2, ![M, N]⟩ .f32 0x00000000#32) (ix2 p q)
      + broadcastTo ⟨2, ![M, N]⟩ (shapeCast ⟨2, ![1, N]⟩ b hcb) hb (ix2 p q) = _
  rw [matmul_zero_plain_apply D hl hr hrank hsize hl0 hr1, broadcastTo_1b_ab_apply, shapeCast_self, shapeCast_self]
  rfl

/-- The host's dense layer at `(p, q)`. -/
theorem host_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) D none h w)
      (broadcastInDim ⟨2, ![M, N]⟩ ![0, 1] h2 (broadcastInDim ⟨2, ![1, N]⟩ ![1] h1 b)) (ix2 p q)
      = lin (fun k => h (ix2 p k)) (fun k j => w (ix2 k j)) (fun j => b (ix1 j)) q := by
  show Host.dotGeneral (F := Ideal) D none h w (ix2 p q)
      + broadcastInDim ⟨2, ![M, N]⟩ ![0, 1] h2 (broadcastInDim ⟨2, ![1, N]⟩ ![1] h1 b) (ix2 p q) = _
  rw [dotGeneral_plain_apply D hl hr hrank hsize hl0 hr1, rowBias_inDim_apply]
  rfl

/-- The kernel's first layer at `(p, q)`: the dense layer of the block `a` plus the bias-free product of the block `x` with a
    second table, grouped `(a·wl + bl) + x·wr`. -/
theorem kernel_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨2, ![1, N]⟩ .f32)
    (ht : FTy.bf16.bits < FTy.f32.bits) (hca : (⟨2, ![M, K]⟩ : Shape).ShapeCasts ⟨2, ![M, K]⟩)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb))
      (matmul D none (truncf .bf16 x ht) (truncf .bf16 (shapeCast ⟨2, ![K, N]⟩ wr hcw) ht)
        (constant (F := Ideal) ⟨2, ![M, N]⟩ .f32 0x00000000#32)) (ix2 p q)
      = first (fun k => a (ix2 p k)) (fun k => x (ix2 p k)) (fun k j => wl (ix2 k j)) (fun j => bl (ix2 (0 : Fin 1) j))
          (fun k j => wr (ix2 k j)) q := by
  show addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb) (ix2 p q)
      + matmul D none (truncf .bf16 x ht) (truncf .bf16 (shapeCast ⟨2, ![K, N]⟩ wr hcw) ht)
        (constant (F := Ideal) ⟨2, ![M, N]⟩ .f32 0x00000000#32) (ix2 p q) = _
  rw [kernel_lin_apply D hl hr hrank hsize hl0 hr1 (shapeCast ⟨2, ![M, K]⟩ a hca) wl bl ht hcw hcb hb p q,
    matmul_zero_plain_apply D hl hr hrank hsize hl0 hr1, shapeCast_self, shapeCast_self]
  rfl

/-- The host's first layer at `(p, q)`, in the same grouping. -/
theorem host_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (addf (Host.dotGeneral (F := Ideal) D none a wl)
        (broadcastInDim ⟨2, ![M, N]⟩ ![0, 1] h2 (broadcastInDim ⟨2, ![1, N]⟩ ![1] h1 bl)))
      (Host.dotGeneral (F := Ideal) D none x wr) (ix2 p q)
      = first (fun k => a (ix2 p k)) (fun k => x (ix2 p k)) (fun k j => wl (ix2 k j)) (fun j => bl (ix1 j))
          (fun k j => wr (ix2 k j)) q := by
  show addf (Host.dotGeneral (F := Ideal) D none a wl)
        (broadcastInDim ⟨2, ![M, N]⟩ ![0, 1] h2 (broadcastInDim ⟨2, ![1, N]⟩ ![1] h1 bl)) (ix2 p q)
      + Host.dotGeneral (F := Ideal) D none x wr (ix2 p q) = _
  rw [host_lin_apply D hl hr hrank hsize hl0 hr1 a wl bl h1 h2 p q, dotGeneral_plain_apply D hl hr hrank hsize hl0 hr1]
  rfl

/-- The kernel's positive part: the maximum with the zero word splat over the block. -/
theorem kernel_act_apply {M N : ℕ} (v : FVec Ideal ⟨2, ![M, N]⟩ .f32) (p : Fin M) (q : Fin N) :
    maximumf v (broadcast ⟨2, ![M, N]⟩ (Scalar.ofBits (F := Ideal) .f32 0x00000000#32)) (ix2 p q)
      = act (Ideal.ofBits .f32 0x00000000#32) (fun j => v (ix2 p j)) q := rfl

/-- The host's positive part: the maximum with the zero scalar laid over the array. -/
theorem host_act_apply {M N : ℕ} (v : FVec Ideal ⟨2, ![M, N]⟩ .f32)
    (h : (⟨0, ![]⟩ : Shape).BroadcastsInDim ⟨2, ![M, N]⟩ ![]) (p : Fin M) (q : Fin N) :
    maximumf v (broadcastInDim ⟨2, ![M, N]⟩ ![] h (constant (F := Ideal) ⟨0, ![]⟩ .f32 0x00000000#32)) (ix2 p q)
      = act (Ideal.ofBits .f32 0x00000000#32) (fun j => v (ix2 p j)) q := by
  show max (v (ix2 p q)) (broadcastInDim ⟨2, ![M, N]⟩ ![] h (constant (F := Ideal) ⟨0, ![]⟩ .f32 0x00000000#32) (ix2 p q)) = _
  rw [broadcastInDim_apply ![] h _ (ix2 p q) ix0 (fun a => a.elim0)]
  rfl

end Cert.DenseLayer

end
-- ==== Proof.LibPerceptronRows.lean ====
/-
  A perceptron of four dense layers on one row of extended reals: the first layer followed by the two-slope unit
  (a feature above the word `z` is kept, any other is multiplied by `s`), the second and third by the positive part,
  the fourth by nothing. `mlpRow` is the whole map on a row; the lemmas below read ONE layer of a block of rows whose
  weight table already sits in the short float format (so only the left operand is narrowed before the product), and
  the two-slope unit in the two spellings programs use, at a row `p` and an output feature `q`.
-/
import proofs.«120022_j45045617000801_1_alg».proof.Proof.LibDenseLayer

noncomputable section

namespace Cert.Mlp

open Idealize.ShloMosaic Idealize.ShloMosaic.ValueIdx Cert.DenseRows Cert.DenseLayer
open scoped BigOperators

/-- The two-slope unit on every feature: a feature strictly above `z` is kept, any other is multiplied by `s`. -/
def leaky {N : ℕ} (z s : EReal) (v : Fin N → EReal) (j : Fin N) : EReal :=
  Scalar.select (FloatOps.cmpf (F := Ideal) (φ := .f32) .ogt (v j) z) (v j) (s * v j)

/-- The two-slope unit depends on its input row only through the row's entries. -/
theorem leaky_congr {N : ℕ} (z s : EReal) {v v' : Fin N → EReal} (j : Fin N) (e : ∀ k, v k = v' k) :
    leaky z s v j = leaky z s v' j := by rw [funext e]

/-- Four dense layers on one row `h` of `K` features, hidden width `N`. -/
def mlpRow {K N : ℕ} (z s : EReal) (h : Fin K → EReal)
    (w1 : Fin K → Fin N → EReal) (b1 : Fin N → EReal) (w2 : Fin N → Fin N → EReal) (b2 : Fin N → EReal)
    (w3 : Fin N → Fin N → EReal) (b3 : Fin N → EReal) (w4 : Fin N → Fin N → EReal) (b4 : Fin N → EReal) : Fin N → EReal :=
  lin (act z (lin (act z (lin (leaky z s (lin h w1 b1)) w2 b2)) w3 b3)) w4 b4

/-- The whole map depends on its input row only through the row's entries. -/
theorem mlpRow_congr {K N : ℕ} (z s : EReal) {h h' : Fin K → EReal}
    (w1 : Fin K → Fin N → EReal) (b1 : Fin N → EReal) (w2 : Fin N → Fin N → EReal) (b2 : Fin N → EReal)
    (w3 : Fin N → Fin N → EReal) (b3 : Fin N → EReal) (w4 : Fin N → Fin N → EReal) (b4 : Fin N → EReal)
    (e : ∀ k, h k = h' k) : mlpRow z s h w1 b1 w2 b2 w3 b3 w4 b4 = mlpRow z s h' w1 b1 w2 b2 w3 b3 w4 b4 := by
  rw [funext e]

/-- The whole map depends on the row, the tables and the bias rows only through their entries. -/
theorem mlpRow_congr_all {K N : ℕ} (z s : EReal) {h h' : Fin K → EReal}
    {w1 w1' : Fin K → Fin N → EReal} {b1 b1' : Fin N → EReal} {w2 w2' : Fin N → Fin N → EReal} {b2 b2' : Fin N → EReal}
    {w3 w3' : Fin N → Fin N → EReal} {b3 b3' : Fin N → EReal} {w4 w4' : Fin N → Fin N → EReal} {b4 b4' : Fin N → EReal}
    (eh : ∀ k, h k = h' k) (e1 : ∀ k j, w1 k j = w1' k j) (f1 : ∀ j, b1 j = b1' j) (e2 : ∀ k j, w2 k j = w2' k j)
    (f2 : ∀ j, b2 j = b2' j) (e3 : ∀ k j, w3 k j = w3' k j) (f3 : ∀ j, b3 j = b3' j) (e4 : ∀ k j, w4 k j = w4' k j)
    (f4 : ∀ j, b4 j = b4' j) :
    mlpRow z s h w1 b1 w2 b2 w3 b3 w4 b4 = mlpRow z s h' w1' b1' w2' b2' w3' b3' w4' b4' := by
  rw [funext eh, funext fun k => funext (e1 k), funext f1, funext fun k => funext (e2 k), funext f2,
    funext fun k => funext (e3 k), funext f3, funext fun k => funext (e4 k), funext f4]

/-- One dense layer of a block of rows whose weight table is already in the short format: the block is narrowed, the
    table only re-cast to its own shape, the product taken into a zero accumulator, and the bias row `[1, N]` laid down
    the rows. At `(p, q)` it is `lin` of row `p`. -/
theorem kernel_layer_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .bf16) (b : FVec Ideal ⟨2, ![1, N]⟩ .f32)
    (ht : FTy.bf16.bits < FTy.f32.bits)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (matmul D none (truncf .bf16 h ht) (shapeCast ⟨2, ![K, N]⟩ w hcw)
        (constant (F := Ideal) ⟨2, ![M, N]⟩ .f32 0x00000000#32))
      (broadcastTo ⟨2, ![M, N]⟩ (shapeCast ⟨2, ![1, N]⟩ b hcb) hb) (ix2 p q)
      = lin (fun k => h (ix2 p k)) (fun k j => w (ix2 k j)) (fun j => b (ix2 (0 : Fin 1) j)) q := by
  show matmul D none (truncf .bf16 h ht) (shapeCast ⟨2, ![K, N]⟩ w hcw)
        (constant (F := Ideal) ⟨2, ![M, N]⟩ .f32 0x00000000#32) (ix2 p q)
      + broadcastTo ⟨2, ![M, N]⟩ (shapeCast ⟨2, ![1, N]⟩ b hcb) hb (ix2 p q) = _
  rw [matmul_zero_plain_apply D hl hr hrank hsize hl0 hr1, broadcastTo_1b_ab_apply, shapeCast_self, shapeCast_self]
  rfl

/-- The kernel's two-slope unit at `(p, q)`: compare with the splat zero word, multiply by the splat slope, select. -/
theorem kernel_leaky_apply {M N : ℕ} (v : FVec Ideal ⟨2, ![M, N]⟩ .f32) (zw sw : BitVec 32) (p : Fin M) (q : Fin N) :
    select (cmpf .ogt v (broadcast ⟨2, ![M, N]⟩ (Scalar.ofBits (F := Ideal) .f32 zw))) v
        (mulf (broadcast ⟨2, ![M, N]⟩ (Scalar.ofBits (F := Ideal) .f32 sw)) v) (ix2 p q)
      = leaky (Ideal.ofBits .f32 zw) (Ideal.ofBits .f32 sw) (fun j => v (ix2 p j)) q := rfl

/-- The host's two-slope unit at `(p, q)`: the zero and the slope are scalars laid over the array. -/
theorem host_leaky_apply {M N : ℕ} (v : FVec Ideal ⟨2, ![M, N]⟩ .f32) (zw sw : BitVec 32)
    (h : (⟨0, ![]⟩ : Shape).BroadcastsInDim ⟨2, ![M, N]⟩ ![]) (p : Fin M) (q : Fin N) :
    select (cmpf .ogt v (broadcastInDim ⟨2, ![M, N]⟩ ![] h (constant (F := Ideal) ⟨0, ![]⟩ .f32 zw))) v
        (mulf (broadcastInDim ⟨2, ![M, N]⟩ ![] h (constant (F := Ideal) ⟨0, ![]⟩ .f32 sw)) v) (ix2 p q)
      = leaky (Ideal.ofBits .f32 zw) (Ideal.ofBits .f32 sw) (fun j => v (ix2 p j)) q := by
  show Scalar.select (FloatOps.cmpf (F := Ideal) (φ := .f32) .ogt (v (ix2 p q))
        (broadcastInDim ⟨2, ![M, N]⟩ ![] h (constant (F := Ideal) ⟨0, ![]⟩ .f32 zw) (ix2 p q))) (v (ix2 p q))
      (broadcastInDim ⟨2, ![M, N]⟩ ![] h (constant (F := Ideal) ⟨0, ![]⟩ .f32 sw) (ix2 p q) * v (ix2 p q)) = _
  rw [broadcastInDim_apply ![] h _ (ix2 p q) ix0 (fun a => a.elim0), broadcastInDim_apply ![] h _ (ix2 p q) ix0 (fun a => a.elim0)]
  rfl

end Cert.Mlp

end
-- ==== Proof.KernelRows.lean ====
/-
  What one grid point's body computes, read row by row: the block it stores is, at row `p` and feature `q`, the
  four-layer perceptron `Cert.Mlp.mlpRow` of row `p` of the sum of its two input blocks, with the four weight tables and
  bias rows it loads. The body narrows each layer's input to the short float format before the product (the identity on
  extended reals), takes the products into zero accumulators, and lays each bias row down the block's rows.
-/
import proofs.«120022_j45045617000801_1_alg».proof.Proof.Gen.KernelIdeal.Skeleton
import proofs.«120022_j45045617000801_1_alg».proof.Proof.LibPerceptronRows

set_option maxRecDepth 16384

noncomputable section

namespace Cert.KernelIdeal.Rows

open Idealize.ShloMosaic Idealize.ShloMosaic.ValueIdx Cert.KernelIdeal Cert.KernelIdeal.Gen Cert.DenseLayer Cert.Mlp

/-! ## The two products' dimension numbers keep the left rows and the right columns in place -/

theorem d1_l0 (j : S2000x512.Idx) (k : dot_S2000x128_S128x512_S2000x512_1_0_0_1_n_n.contr.Idx) :
    (dot_S2000x128_S128x512_S2000x512_1_0_0_1_n_n.lhsIdx j k (0 : Fin 2)).val = (j (0 : Fin 2)).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem d1_r1 (j : S2000x512.Idx) (k : dot_S2000x128_S128x512_S2000x512_1_0_0_1_n_n.contr.Idx) :
    (dot_S2000x128_S128x512_S2000x512_1_0_0_1_n_n.rhsIdx j k (1 : Fin 2)).val = (j (1 : Fin 2)).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

theorem d2_l0 (j : S2000x512.Idx) (k : dot_S2000x512_S512x512_S2000x512_1_0_0_1_n_n.contr.Idx) :
    (dot_S2000x512_S512x512_S2000x512_1_0_0_1_n_n.lhsIdx j k (0 : Fin 2)).val = (j (0 : Fin 2)).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem d2_r1 (j : S2000x512.Idx) (k : dot_S2000x512_S512x512_S2000x512_1_0_0_1_n_n.contr.Idx) :
    (dot_S2000x512_S512x512_S2000x512_1_0_0_1_n_n.rhsIdx j k (1 : Fin 2)).val = (j (1 : Fin 2)).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-! ## The stored block at a row and a feature -/

/-- The block the body stores, at `(p, q)`: the perceptron of row `p` of `x0 + x1`. -/
theorem pay_apply (x0 x1 : Vec Ideal S2000x128 .f32) (x2 : Vec Ideal S128x512 .bf16) (x3 : Vec Ideal S1x512 .f32)
    (x4 : Vec Ideal S512x512 .bf16) (x5 : Vec Ideal S1x512 .f32) (x6 : Vec Ideal S512x512 .bf16) (x7 : Vec Ideal S1x512 .f32)
    (x8 : Vec Ideal S512x512 .bf16) (x9 : Vec Ideal S1x512 .f32) (p : Fin 2000) (q : Fin 512) :
    k0_pay1 (F := Ideal) (k0_pay2 x0 x1 x2 x3 x4 x5 x6 x7) k0_pay3 x8 x9 (ix2 p q)
      = mlpRow (Ideal.ofBits .f32 0x00000000#32) (Ideal.ofBits .f32 0x3FC00000#32)
          (fun k => x0 (ix2 p k) + x1 (ix2 p k))
          (fun k j => x2 (ix2 k j)) (fun j => x3 (ix2 (0 : Fin 1) j))
          (fun k j => x4 (ix2 k j)) (fun j => x5 (ix2 (0 : Fin 1) j))
          (fun k j => x6 (ix2 k j)) (fun j => x7 (ix2 (0 : Fin 1) j))
          (fun k j => x8 (ix2 k j)) (fun j => x9 (ix2 (0 : Fin 1) j)) q := by
  unfold k0_pay1 k0_pay2 k0_pay3 mlpRow
  refine (kernel_layer_apply dot_S2000x512_S512x512_S2000x512_1_0_0_1_n_n rfl rfl rfl rfl d2_l0 d2_r1 _ x8 x9 _ _ _ _ p q).trans ?_
  refine lin_congr _ _ q fun k3 => ?_
  refine (kernel_act_apply _ p k3).trans ?_
  refine act_congr _ k3 fun j3 => ?_
  refine (kernel_layer_apply dot_S2000x512_S512x512_S2000x512_1_0_0_1_n_n rfl rfl rfl rfl d2_l0 d2_r1 _ x6 x7 _ _ _ _ p j3).trans ?_
  refine lin_congr _ _ j3 fun k2 => ?_
  refine (kernel_act_apply _ p k2).trans ?_
  refine act_congr _ k2 fun j2 => ?_
  refine (kernel_layer_apply dot_S2000x512_S512x512_S2000x512_1_0_0_1_n_n rfl rfl rfl rfl d2_l0 d2_r1 _ x4 x5 _ _ _ _ p j2).trans ?_
  refine lin_congr _ _ j2 fun k1 => ?_
  refine (kernel_leaky_apply _ 0x00000000#32 0x3FC00000#32 p k1).trans ?_
  refine leaky_congr _ _ k1 fun j1 => ?_
  refine (kernel_layer_apply dot_S2000x128_S128x512_S2000x512_1_0_0_1_n_n rfl rfl rfl rfl d1_l0 d1_r1 _ x2 x3 _ _ _ _ p j1).trans ?_
  refine lin_congr _ _ j1 fun k0 => ?_
  show x0 (ix2 p k0) + shapeCast S2000x128 x1 shapeCasts_S2000x128_S2000x128 (ix2 p k0) = _
  rw [shapeCast_self]

end Cert.KernelIdeal.Rows

end
-- ==== Proof.KernelArray.lean ====
/-
  The array the kernel's region leaves: every grid point `t` writes back the block of rows `2000 t … 2000 t + 1999`, the
  25 blocks tile the `[50000, 512]` array, and each written block is the four-layer perceptron of the same rows of the two
  row-blocked inputs (the node features and their neighbourhood sums) with the four weight tables and bias rows, which
  every point reads whole. So the array ends at `G`: at node `r`, feature `q`, the perceptron of row `r`.
-/
import proofs.«120022_j45045617000801_1_alg».proof.Proof.Gen.KernelIdeal.Frame
import proofs.«120022_j45045617000801_1_alg».proof.Proof.KernelRows
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.Mlp

variable (m : (ℓ : Loc nD τ sig) → Buf (Elt Ideal) ℓ)

theorem hz : (![0, 0] : Fin 2 → Nat) = fun _ => 0 := funext fun a => by fin_cases a <;> rfl

/-- The printed index maps over the grid: the two row-blocked inputs and the output move down the rows with the point,
    the tables and bias rows stay at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

/-! ## A window's block at a point, read off any array of the window's shape -/

/-- A read of window 0's block at point `t` from ANY array of its shape: rows `2000 t … 2000 t + 1999`. -/
theorem read0_apply (A : FVec Ideal S50000x128 .f32) (t : Fin cfg0.N) (p : Fin 2000) (k : Fin 128) (r : Fin 50000)
    (hr : r.val = t.val * 2000 + p.val) :
    (((cfg0.win 0).blk t).view.read (Elt Ideal) A : Vec Ideal S2000x128 .f32) (ix2 p k) = A (ix2 r k) := by
  obtain ⟨e00, e01, e10, e11, -⟩ := idx_facts t
  rw [View.read_apply]
  refine congrArg A ?_
  funext a
  apply Fin.ext
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- A read of window 1's block at point `t` from ANY array of its shape: rows `2000 t … 2000 t + 1999`. -/
theorem read1_apply (A : FVec Ideal S50000x128 .f32) (t : Fin cfg0.N) (p : Fin 2000) (k : Fin 128) (r : Fin 50000)
    (hr : r.val = t.val * 2000 + p.val) :
    (((cfg0.win 1).blk t).view.read (Elt Ideal) A : Vec Ideal S2000x128 .f32) (ix2 p k) = A (ix2 r k) := by
  obtain ⟨e00, e01, e10, e11, -⟩ := idx_facts t
  rw [View.read_apply]
  refine congrArg A ?_
  funext a
  apply Fin.ext
  match a with
  | ⟨0, _⟩ => show win0_1.index t (0 : Fin 2) * 2000 + 1 * p.val = r.val; rw [e10, hr]; omega
  | ⟨1, _⟩ => show win0_1.index t (1 : Fin 2) * 128 + 1 * k.val = k.val; rw [e11]; omega

/-- A read of window 2's block at any point from ANY array of its shape: the whole array. -/
theorem read2_apply (A : FVec Ideal S128x512 .bf16) (t : Fin cfg0.N) (y : S128x512.Idx) :
    (((cfg0.win 2).blk t).view.read (Elt Ideal) A : Vec Ideal S128x512 .bf16) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_2.index t (0 : Fin 2) * 128 + 1 * (y 0).val = (y 0).val; rw [e20]; omega
  | ⟨1, _⟩ => show win0_2.index t (1 : Fin 2) * 512 + 1 * (y 1).val = (y 1).val; rw [e21]; omega

/-- A read of window 3's block at any point from ANY array of its shape: the whole array. -/
theorem read3_apply (A : FVec Ideal S1x512 .f32) (t : Fin cfg0.N) (y : S1x512.Idx) :
    (((cfg0.win 3).blk t).view.read (Elt Ideal) A : Vec Ideal S1x512 .f32) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_3.index t (0 : Fin 2) * 1 + 1 * (y 0).val = (y 0).val; rw [e30]; omega
  | ⟨1, _⟩ => show win0_3.index t (1 : Fin 2) * 512 + 1 * (y 1).val = (y 1).val; rw [e31]; omega

/-- A read of window 4's block at any point from ANY array of its shape: the whole array. -/
theorem read4_apply (A : FVec Ideal S512x512 .bf16) (t : Fin cfg0.N) (y : S512x512.Idx) :
    (((cfg0.win 4).blk t).view.read (Elt Ideal) A : Vec Ideal S512x512 .bf16) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_4.index t (0 : Fin 2) * 512 + 1 * (y 0).val = (y 0).val; rw [e40]; omega
  | ⟨1, _⟩ => show win0_4.index t (1 : Fin 2) * 512 + 1 * (y 1).val = (y 1).val; rw [e41]; omega

/-- A read of window 5's block at any point from ANY array of its shape: the whole array. -/
theorem read5_apply (A : FVec Ideal S1x512 .f32) (t : Fin cfg0.N) (y : S1x512.Idx) :
    (((cfg0.win 5).blk t).view.read (Elt Ideal) A : Vec Ideal S1x512 .f32) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_5.index t (0 : Fin 2) * 1 + 1 * (y 0).val = (y 0).val; rw [e50]; omega
  | ⟨1, _⟩ => show win0_5.index t (1 : Fin 2) * 512 + 1 * (y 1).val = (y 1).val; rw [e51]; omega

/-- A read of window 6's block at any point from ANY array of its shape: the whole array. -/
theorem read6_apply (A : FVec Ideal S512x512 .bf16) (t : Fin cfg0.N) (y : S512x512.Idx) :
    (((cfg0.win 6).blk t).view.read (Elt Ideal) A : Vec Ideal S512x512 .bf16) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_6.index t (0 : Fin 2) * 512 + 1 * (y 0).val = (y 0).val; rw [e60]; omega
  | ⟨1, _⟩ => show win0_6.index t (1 : Fin 2) * 512 + 1 * (y 1).val = (y 1).val; rw [e61]; omega

/-- A read of window 7's block at any point from ANY array of its shape: the whole array. -/
theorem read7_apply (A : FVec Ideal S1x512 .f32) (t : Fin cfg0.N) (y : S1x512.Idx) :
    (((cfg0.win 7).blk t).view.read (Elt Ideal) A : Vec Ideal S1x512 .f32) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_7.index t (0 : Fin 2) * 1 + 1 * (y 0).val = (y 0).val; rw [e70]; omega
  | ⟨1, _⟩ => show win0_7.index t (1 : Fin 2) * 512 + 1 * (y 1).val = (y 1).val; rw [e71]; omega

/-- A read of window 8's block at any point from ANY array of its shape: the whole array. -/
theorem read8_apply (A : FVec Ideal S512x512 .bf16) (t : Fin cfg0.N) (y : S512x512.Idx) :
    (((cfg0.win 8).blk t).view.read (Elt Ideal) A : Vec Ideal S512x512 .bf16) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_8.index t (0 : Fin 2) * 512 + 1 * (y 0).val = (y 0).val; rw [e80]; omega
  | ⟨1, _⟩ => show win0_8.index t (1 : Fin 2) * 512 + 1 * (y 1).val = (y 1).val; rw [e81]; omega

/-- A read of window 9's block at any point from ANY array of its shape: the whole array. -/
theorem read9_apply (A : FVec Ideal S1x512 .f32) (t : Fin cfg0.N) (y : S1x512.Idx) :
    (((cfg0.win 9).blk t).view.read (Elt Ideal) A : Vec Ideal S1x512 .f32) y = A y := by
  obtain ⟨-, -, -, -, e20, e21, e30, e31, e40, e41, e50, e51, e60, e61, e70, e71, e80, e81, e90, e91, -, -⟩ := idx_facts t
  rw [View.read_apply]
  refine congrArg A ?_
  funext a
  apply Fin.ext
  match a with
  | ⟨0, _⟩ => show win0_9.index t (0 : Fin 2) * 1 + 1 * (y 0).val = (y 0).val; rw [e90]; omega
  | ⟨1, _⟩ => show win0_9.index t (1 : Fin 2) * 512 + 1 * (y 1).val = (y 1).val; rw [e91]; omega

/-! ## The arrays the region reads, as it finds them -/

/-- Window 0's array as the region finds it: the node features. -/
@[irreducible] def arrX (c : Dev nD) : FVec Ideal S50000x128 .f32 := V m c main_arg0
/-- Window 1's array as the region finds it: the neighbourhood sums. -/
@[irreducible] def arrAgg (c : Dev nD) : FVec Ideal S50000x128 .f32 := V m c main_v13
/-- Window 2's array as the region finds it: the first weight table. -/
@[irreducible] def arrW1 (c : Dev nD) : FVec Ideal S128x512 .bf16 := V m c main_v14
/-- Window 3's array as the region finds it: the first bias row. -/
@[irreducible] def arrB1 (c : Dev nD) : FVec Ideal S1x512 .f32 := V m c main_v18
/-- Window 4's array as the region finds it: the second weight table. -/
@[irreducible] def arrW2 (c : Dev nD) : FVec Ideal S512x512 .bf16 := V m c main_v15
/-- Window 5's array as the region finds it: the second bias row. -/
@[irreducible] def arrB2 (c : Dev nD) : FVec Ideal S1x512 .f32 := V m c main_v19
/-- Window 6's array as the region finds it: the third weight table. -/
@[irreducible] def arrW3 (c : Dev nD) : FVec Ideal S512x512 .bf16 := V m c main_v16
/-- Window 7's array as the region finds it: the third bias row. -/
@[irreducible] def arrB3 (c : Dev nD) : FVec Ideal S1x512 .f32 := V m c main_v20
/-- Window 8's array as the region finds it: the fourth weight table. -/
@[irreducible] def arrW4 (c : Dev nD) : FVec Ideal S512x512 .bf16 := V m c main_v17
/-- Window 9's array as the region finds it: the fourth bias row. -/
@[irreducible] def arrB4 (c : Dev nD) : FVec Ideal S1x512 .f32 := V m c main_v21

/-! ## Each window's block at a point, read off its array -/

/-- Window 0's block at point `t` is rows `2000 t … 2000 t + 1999` of its array. -/
theorem iblk0_apply (c : Dev nD) (t : Fin cfg0.N) (p : Fin 2000) (k : Fin 128) (r : Fin 50000) (hr : r.val = t.val * 2000 + p.val) :
    (iblk m c 0 t : Vec Ideal S2000x128 .f32) (ix2 p k) = arrX m c (ix2 r k) := by
  unfold iblk arrX
  exact read0_apply (V m c main_arg0) t p k r hr

/-- Window 1's block at point `t` is rows `2000 t … 2000 t + 1999` of its array. -/
theorem iblk1_apply (c : Dev nD) (t : Fin cfg0.N) (p : Fin 2000) (k : Fin 128) (r : Fin 50000) (hr : r.val = t.val * 2000 + p.val) :
    (iblk m c 1 t : Vec Ideal S2000x128 .f32) (ix2 p k) = arrAgg m c (ix2 r k) := by
  unfold iblk arrAgg
  exact read1_apply (V m c main_v13) t p k r hr

/-- Window 2 is its whole array at every point. -/
theorem iblk2_apply (c : Dev nD) (t : Fin cfg0.N) (y : S128x512.Idx) :
    (iblk m c 2 t : Vec Ideal S128x512 .bf16) y = arrW1 m c y := by
  unfold iblk arrW1
  exact read2_apply (V m c main_v14) t y

/-- Window 3 is its whole array at every point. -/
theorem iblk3_apply (c : Dev nD) (t : Fin cfg0.N) (y : S1x512.Idx) :
    (iblk m c 3 t : Vec Ideal S1x512 .f32) y = arrB1 m c y := by
  unfold iblk arrB1
  exact read3_apply (V m c main_v18) t y

/-- Window 4 is its whole array at every point. -/
theorem iblk4_apply (c : Dev nD) (t : Fin cfg0.N) (y : S512x512.Idx) :
    (iblk m c 4 t : Vec Ideal S512x512 .bf16) y = arrW2 m c y := by
  unfold iblk arrW2
  exact read4_apply (V m c main_v15) t y

/-- Window 5 is its whole array at every point. -/
theorem iblk5_apply (c : Dev nD) (t : Fin cfg0.N) (y : S1x512.Idx) :
    (iblk m c 5 t : Vec Ideal S1x512 .f32) y = arrB2 m c y := by
  unfold iblk arrB2
  exact read5_apply (V m c main_v19) t y

/-- Window 6 is its whole array at every point. -/
theorem iblk6_apply (c : Dev nD) (t : Fin cfg0.N) (y : S512x512.Idx) :
    (iblk m c 6 t : Vec Ideal S512x512 .bf16) y = arrW3 m c y := by
  unfold iblk arrW3
  exact read6_apply (V m c main_v16) t y

/-- Window 7 is its whole array at every point. -/
theorem iblk7_apply (c : Dev nD) (t : Fin cfg0.N) (y : S1x512.Idx) :
    (iblk m c 7 t : Vec Ideal S1x512 .f32) y = arrB3 m c y := by
  unfold iblk arrB3
  exact read7_apply (V m c main_v20) t y

/-- Window 8 is its whole array at every point. -/
theorem iblk8_apply (c : Dev nD) (t : Fin cfg0.N) (y : S512x512.Idx) :
    (iblk m c 8 t : Vec Ideal S512x512 .bf16) y = arrW4 m c y := by
  unfold iblk arrW4
  exact read8_apply (V m c main_v17) t y

/-- Window 9 is its whole array at every point. -/
theorem iblk9_apply (c : Dev nD) (t : Fin cfg0.N) (y : S1x512.Idx) :
    (iblk m c 9 t : Vec Ideal S1x512 .f32) y = arrB4 m c y := by
  unfold iblk arrB4
  exact read9_apply (V m c main_v21) t y

/-! ## The whole array -/

/-- The block the body leaves in the output's buffer is its one store's value: the rectangles it loads and stores through
    are the whole buffers. -/
theorem out_eq (x0 x1 : Vec Ideal S2000x128 .f32) (x2 : Vec Ideal S128x512 .bf16) (x3 : Vec Ideal S1x512 .f32)
    (x4 : Vec Ideal S512x512 .bf16) (x5 : Vec Ideal S1x512 .f32) (x6 : Vec Ideal S512x512 .bf16) (x7 : Vec Ideal S1x512 .f32)
    (x8 : Vec Ideal S512x512 .bf16) (x9 : Vec Ideal S1x512 .f32) :
    out0_10 x0 x1 x2 x3 x4 x5 x6 x7 x8 x9 = k0_pay1 (k0_pay2 x0 x1 x2 x3 x4 x5 x6 x7) k0_pay3 x8 x9 := by
  unfold out0_10
  rw [View.canon_unit_zero hz]
  simp only [View.ld_unit_zero (S := S2000x128) hz, View.ld_unit_zero (S := S128x512) hz, View.ld_unit_zero (S := S1x512) hz,
    View.ld_unit_zero (S := S512x512) hz]

/-- What the output array ends holding: at node `i 0` and feature `i 1` the perceptron of the node's row of
    `x + agg`, over the arrays as the region finds them. -/
def G (c : Dev nD) : FVec Ideal S50000x512 .f32 := fun i =>
  mlpRow (Ideal.ofBits .f32 0x00000000#32) (Ideal.ofBits .f32 0x3FC00000#32)
    (fun k => arrX m c (ix2 (i 0) k) + arrAgg m c (ix2 (i 0) k))
    (fun k j => arrW1 m c (ix2 k j)) (fun j => arrB1 m c (ix2 (0 : Fin 1) j))
    (fun k j => arrW2 m c (ix2 k j)) (fun j => arrB2 m c (ix2 (0 : Fin 1) j))
    (fun k j => arrW3 m c (ix2 k j)) (fun j => arrB3 m c (ix2 (0 : Fin 1) j))
    (fun k j => arrW4 m c (ix2 k j)) (fun j => arrB4 m c (ix2 (0 : Fin 1) j))
    (i 1)

/-- What point `t` writes back is block `t` of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10, out_eq]
  funext j
  rw [View.read_apply]
  obtain ⟨p, q, rfl⟩ : ∃ (p : Fin 2000) (q : Fin 512), j = ix2 p q := ⟨j 0, j 1, eq_ix2 j⟩
  have hN : t.val < 25 := lt_of_lt_of_eq t.isLt N_0
  have hr : t.val * 2000 + p.val < 50000 := by have := p.isLt; omega
  obtain ⟨-, -, -, -, -, -, -, -, -, -, -, -, -, -, -, -, -, -, -, -, ea0, ea1⟩ := idx_facts t
  have hemb : ((cfg0.win 10).blk t).view.emb (ix2 p q) = ix2 (⟨t.val * 2000 + p.val, hr⟩ : Fin 50000) q := by
    funext a
    apply Fin.ext
    match a with
    | ⟨0, _⟩ => show win0_10.index t (0 : Fin 2) * 2000 + 1 * p.val = t.val * 2000 + p.val; rw [ea0]; omega
    | ⟨1, _⟩ => show win0_10.index t (1 : Fin 2) * 512 + 1 * q.val = q.val; rw [ea1]; omega
  rw [hemb]
  refine (Cert.KernelIdeal.Rows.pay_apply (iblk m c 0 t) (iblk m c 1 t) (iblk m c 2 t) (iblk m c 3 t) (iblk m c 4 t) (iblk m c 5 t) (iblk m c 6 t) (iblk m c 7 t) (iblk m c 8 t) (iblk m c 9 t) p q).trans ?_
  exact congrFun (mlpRow_congr_all _ _
    (fun k => by rw [iblk0_apply m c t p k ⟨t.val * 2000 + p.val, hr⟩ rfl, iblk1_apply m c t p k ⟨t.val * 2000 + p.val, hr⟩ rfl])
    (fun k j => iblk2_apply m c t (ix2 k j)) (fun j => iblk3_apply m c t (ix2 (0 : Fin 1) j))
    (fun k j => iblk4_apply m c t (ix2 k j)) (fun j => iblk5_apply m c t (ix2 (0 : Fin 1) j))
    (fun k j => iblk6_apply m c t (ix2 k j)) (fun j => iblk7_apply m c t (ix2 (0 : Fin 1) j))
    (fun k j => iblk8_apply m c t (ix2 k j)) (fun j => iblk9_apply m c t (ix2 (0 : Fin 1) j))) q

/-- Every index of the array lies in the block of the point its row falls in. -/
theorem cover (i : S50000x512.Idx) :
    ∃ t : Fin cfg0.N, (cfg0.win 10).flush t = true ∧ i ∈ ((cfg0.win 10).blk t).view.set := by
  have h0 : (i 0).val < 50000 := (i 0).isLt
  have h1 : (i 1).val < 512 := (i 1).isLt
  have hN : cfg0.N = 25 := N_0
  have ht : (i 0).val / 2000 < cfg0.N := by rw [hN]; omega
  refine ⟨⟨(i 0).val / 2000, ht⟩, flush0_10 _, ?_⟩
  obtain ⟨-, -, -, -, -, -, -, -, -, -, -, -, -, -, -, -, -, -, -, -, ea0, ea1⟩ := idx_facts ⟨(i 0).val / 2000, ht⟩
  show i ∈ ((View.whole main_v22).slice (win0_10.rect ⟨(i 0).val / 2000, ht⟩)).set
  rw [View.set_slice_whole, Rect.mem_set_unit]
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    rw [ea0]; show (i 0).val / 2000 * 2000 ≤ (i 0).val ∧ (i 0).val < (i 0).val / 2000 * 2000 + 2000; omega
  | ⟨1, _⟩ =>
    show win0_10.index ⟨(i 0).val / 2000, ht⟩ (1 : Fin 2) * 512 ≤ (i 1).val
      ∧ (i 1).val < win0_10.index ⟨(i 0).val / 2000, ht⟩ (1 : Fin 2) * 512 + 512
    rw [ea1]; omega

/-- The output array after the run is `G`. -/
theorem final (c : Dev nD) : (dats m 0 c).arrAt 10 cfg0.N = G m c :=
  (dats m 0 c).arrAt_eq_of_cover 10 (G m c) (fun t _ => flushed_eq m c t) (cover)

end Cert.KernelIdeal.Array

end
-- ==== Proof.Entry.lean ====
/-
  What the kernel's region finds in the arrays the host lines before it wrote: the neighbourhood sums (a gather of the
  source rows scattered-and-added at the destination numbers, the same operations in the same order as the reference's),
  the four weight tables narrowed to the short float format (the identity on extended reals), and the four bias vectors
  each viewed as one row.
-/
import proofs.«120022_j45045617000801_1_alg».proof.Proof.Gen.KernelIdeal.Frame
import proofs.«120022_j45045617000801_1_alg».proof.Proof.Gen.ReferenceIdeal.Read
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Entry

open Cert.KernelIdeal Cert.KernelIdeal.Gen

variable (m : (ℓ : Loc nD τ sig) → Buf (Elt Ideal) ℓ)

/-- The neighbourhood sums the region reads are the reference's, as one term of the node features and the edge list. -/
theorem agg_eq (c : Dev nD) :
    V m c main_v13 = Cert.ReferenceIdeal.Read.val_main_v13 (F := Ideal) (m ((c : Thread nD τ).loc main_arg0)) (m ((c : Thread nD τ).loc main_arg1)) := by
  show StableHlo.after hostOps0 (fun b => m (c, b)) (Proc.devRef .tc main_v13) = _
  after_results_simp
  rfl

/-- The 1 weight table the region reads is the argument, the narrowing being the identity. -/
theorem w1_eq (c : Dev nD) : (V m c main_v14 : S128x512.Idx → EReal) = (m ((c : Thread nD τ).loc main_arg3)) := by
  show StableHlo.after hostOps0 (fun b => m (c, b)) (Proc.devRef .tc main_v14) = _
  after_results_simp
  rfl

/-- The 2 weight table the region reads is the argument, the narrowing being the identity. -/
theorem w2_eq (c : Dev nD) : (V m c main_v15 : S512x512.Idx → EReal) = (m ((c : Thread nD τ).loc main_arg5)) := by
  show StableHlo.after hostOps0 (fun b => m (c, b)) (Proc.devRef .tc main_v15) = _
  after_results_simp
  rfl

/-- The 3 weight table the region reads is the argument, the narrowing being the identity. -/
theorem w3_eq (c : Dev nD) : (V m c main_v16 : S512x512.Idx → EReal) = (m ((c : Thread nD τ).loc main_arg7)) := by
  show StableHlo.after hostOps0 (fun b => m (c, b)) (Proc.devRef .tc main_v16) = _
  after_results_simp
  rfl

/-- The 4 weight table the region reads is the argument, the narrowing being the identity. -/
theorem w4_eq (c : Dev nD) : (V m c main_v17 : S512x512.Idx → EReal) = (m ((c : Thread nD τ).loc main_arg9)) := by
  show StableHlo.after hostOps0 (fun b => m (c, b)) (Proc.devRef .tc main_v17) = _
  after_results_simp
  rfl

/-- The 1 bias row the region reads is the bias vector viewed as one row. -/
theorem b1_eq (c : Dev nD) (j : Fin 512) :
    (V m c main_v18 : S1x512.Idx → EReal) (ix2 (0 : Fin 1) j) = ((m ((c : Thread nD τ).loc main_arg4)) : S512.Idx → EReal) (ix1 j) := by
  have e : (V m c main_v18 : S1x512.Idx → EReal)
      = shapeCast S1x512 ((m ((c : Thread nD τ).loc main_arg4)) : S512.Idx → EReal) shapeCasts_S512_S1x512 := by
    show StableHlo.after hostOps0 (fun b => m (c, b)) (Proc.devRef .tc main_v18) = _
    after_results_simp
    rfl
  rw [e]
  exact shapeCast_a_1a_apply _ _ 0 j

/-- The 2 bias row the region reads is the bias vector viewed as one row. -/
theorem b2_eq (c : Dev nD) (j : Fin 512) :
    (V m c main_v19 : S1x512.Idx → EReal) (ix2 (0 : Fin 1) j) = ((m ((c : Thread nD τ).loc main_arg6)) : S512.Idx → EReal) (ix1 j) := by
  have e : (V m c main_v19 : S1x512.Idx → EReal)
      = shapeCast S1x512 ((m ((c : Thread nD τ).loc main_arg6)) : S512.Idx → EReal) shapeCasts_S512_S1x512 := by
    show StableHlo.after hostOps0 (fun b => m (c, b)) (Proc.devRef .tc main_v19) = _
    after_results_simp
    rfl
  rw [e]
  exact shapeCast_a_1a_apply _ _ 0 j

/-- The 3 bias row the region reads is the bias vector viewed as one row. -/
theorem b3_eq (c : Dev nD) (j : Fin 512) :
    (V m c main_v20 : S1x512.Idx → EReal) (ix2 (0 : Fin 1) j) = ((m ((c : Thread nD τ).loc main_arg8)) : S512.Idx → EReal) (ix1 j) := by
  have e : (V m c main_v20 : S1x512.Idx → EReal)
      = shapeCast S1x512 ((m ((c : Thread nD τ).loc main_arg8)) : S512.Idx → EReal) shapeCasts_S512_S1x512 := by
    show StableHlo.after hostOps0 (fun b => m (c, b)) (Proc.devRef .tc main_v20) = _
    after_results_simp
    rfl
  rw [e]
  exact shapeCast_a_1a_apply _ _ 0 j

/-- The 4 bias row the region reads is the bias vector viewed as one row. -/
theorem b4_eq (c : Dev nD) (j : Fin 512) :
    (V m c main_v21 : S1x512.Idx → EReal) (ix2 (0 : Fin 1) j) = ((m ((c : Thread nD τ).loc main_arg10)) : S512.Idx → EReal) (ix1 j) := by
  have e : (V m c main_v21 : S1x512.Idx → EReal)
      = shapeCast S1x512 ((m ((c : Thread nD τ).loc main_arg10)) : S512.Idx → EReal) shapeCasts_S512_S1x512 := by
    show StableHlo.after hostOps0 (fun b => m (c, b)) (Proc.devRef .tc main_v21) = _
    after_results_simp
    rfl
  rw [e]
  exact shapeCast_a_1a_apply _ _ 0 j

end Cert.KernelIdeal.Entry

end
-- ==== Proof.RefRows.lean ====
/-
  The reference's perceptron read row by row: the array it hands to the pooling stage is, at node `r` and feature `q`,
  the four-layer perceptron `Cert.Mlp.mlpRow` of row `r` of `1 · x + agg` — that is of `x + agg`, the literal being the
  extended real one — with the four weight tables and bias vectors, each bias laid along every row by two broadcasts,
  the zero and the slope of the activations laid over the whole array.
-/
import proofs.«120022_j45045617000801_1_alg».proof.Proof.Gen.ReferenceIdeal.Read
import proofs.«120022_j45045617000801_1_alg».proof.Proof.LibPerceptronRows
import Idealize.ShloMosaic.Lib.IdealHost

set_option maxRecDepth 16384

noncomputable section

namespace Cert.ReferenceIdeal.Rows

open Idealize.ShloMosaic Idealize.ShloMosaic.ValueIdx Cert.ReferenceIdeal Cert.ReferenceIdeal.Gen Cert.ReferenceIdeal.Read Cert.DenseLayer Cert.Mlp

/-- The reference's perceptron output at `(r, q)`: `mlpRow` of row `r` of `x + agg`, `agg` the neighbourhood sum. -/
theorem v39_apply (x0 : (⟨S50000x128, .f32⟩ : BufTy).Contents (Elt Ideal)) (x1 : (⟨S2x800000, .i32⟩ : BufTy).Contents (Elt Ideal)) (x3 : (⟨S128x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (r : Fin 50000) (q : Fin 512) :
    val_main_v39 (F := Ideal) x0 x1 x3 x4 x5 x6 x7 x8 x9 x10 (ix2 r q)
      = mlpRow (Ideal.ofBits .f32 0x00000000#32) (Ideal.ofBits .f32 0x3FC00000#32)
          (fun k => x0 (ix2 r k) + val_main_v13 (F := Ideal) x0 x1 (ix2 r k))
          (fun k j => x3 (ix2 k j)) (fun j => x4 (ix1 j))
          (fun k j => x5 (ix2 k j)) (fun j => x6 (ix1 j))
          (fun k j => x7 (ix2 k j)) (fun j => x8 (ix1 j))
          (fun k j => x9 (ix2 k j)) (fun j => x10 (ix1 j)) q := by
  unfold val_main_v39 val_main_v38 val_main_v37 val_main_v36 mlpRow
  refine (host_lin_apply dot_S50000x512_S512x512_S50000x512_1_0_0_1_n_n rfl rfl rfl rfl lhs_main_v36_0 rhs_main_v36_1 _ x9 x10 _ _ r q).trans ?_
  refine lin_congr _ _ q fun k3 => ?_
  unfold val_main_v35 val_main_call2_v0 val_main_call2_cst
  refine (host_act_apply _ _ r k3).trans ?_
  refine act_congr _ k3 fun j3 => ?_
  unfold val_main_v34 val_main_v33 val_main_v32 val_main_v31
  refine (host_lin_apply dot_S50000x512_S512x512_S50000x512_1_0_0_1_n_n rfl rfl rfl rfl lhs_main_v31_0 rhs_main_v31_1 _ x7 x8 _ _ r j3).trans ?_
  refine lin_congr _ _ j3 fun k2 => ?_
  unfold val_main_v30 val_main_call1_v0 val_main_call1_cst
  refine (host_act_apply _ _ r k2).trans ?_
  refine act_congr _ k2 fun j2 => ?_
  unfold val_main_v29 val_main_v28 val_main_v27 val_main_v26
  refine (host_lin_apply dot_S50000x512_S512x512_S50000x512_1_0_0_1_n_n rfl rfl rfl rfl lhs_main_v26_0 rhs_main_v26_1 _ x5 x6 _ _ r j2).trans ?_
  refine lin_congr _ _ j2 fun k1 => ?_
  unfold val_main_v25 val_main_v24 val_main_v23 val_main_cst_3 val_main_v22 val_main_v21 val_main_cst_2
  refine (host_leaky_apply _ 0x00000000#32 0x3FC00000#32 _ r k1).trans ?_
  refine leaky_congr _ _ k1 fun j1 => ?_
  unfold val_main_v20 val_main_v19 val_main_v18 val_main_v17
  refine (host_lin_apply dot_S50000x128_S128x512_S50000x512_1_0_0_1_n_n rfl rfl rfl rfl lhs_main_v17_0 rhs_main_v17_1 _ x3 x4 _ _ r j1).trans ?_
  refine lin_congr _ _ j1 fun k0 => ?_
  unfold val_main_v16 val_main_v15 val_main_v14 val_main_cst_1
  show broadcastInDim S50000x128 ![] bcast_S_S50000x128 (constant (F := Ideal) S_ .f32 0x3F800000#32) (ix2 r k0) * x0 (ix2 r k0)
      + val_main_v13 (F := Ideal) x0 x1 (ix2 r k0) = _
  rw [broadcastInDim_apply ![] bcast_S_S50000x128 _ (ix2 r k0) ix0 (fun a => a.elim0)]
  show Ideal.ofBits .f32 0x3F800000#32 * x0 (ix2 r k0) + _ = _
  rw [Ideal.ofBits_one_f32, one_mul]

end Cert.ReferenceIdeal.Rows

end
-- ==== Proof.Bridge.lean ====
/-
  The array the kernel's region leaves IS the reference's perceptron output: at every node and feature both are the
  four-layer perceptron of the node's row of `x + agg` — the kernel's read off its region-entry arrays, which are the
  arguments (the tables narrowed, the biases viewed as rows) and the same neighbourhood sums.
-/
import proofs.«120022_j45045617000801_1_alg».proof.Proof.KernelArray
import proofs.«120022_j45045617000801_1_alg».proof.Proof.Entry
import proofs.«120022_j45045617000801_1_alg».proof.Proof.RefRows

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Entry Cert.Mlp

variable (m : (ℓ : Loc nD τ sig) → Buf (Elt Ideal) ℓ)

/-- The region's output array, as a function of the arguments: the reference's perceptron output. -/
theorem G_eq (c : Dev nD) :
    Cert.KernelIdeal.Array.G m c = Cert.ReferenceIdeal.Read.val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, q, rfl⟩ : ∃ (r : Fin 50000) (q : Fin 512), i = ix2 r q := ⟨i 0, i 1, eq_ix2 i⟩
  rw [Cert.ReferenceIdeal.Rows.v39_apply]
  exact congrFun (mlpRow_congr_all _ _
    (fun k => by
      show Array.arrX m c (ix2 r k) + Array.arrAgg m c (ix2 r k) = _
      unfold Array.arrX Array.arrAgg
      rw [V_main_arg0 m c, agg_eq m c])
    (fun k j => by unfold Array.arrW1; rw [w1_eq m c]) (fun j => by unfold Array.arrB1; exact b1_eq m c j)
    (fun k j => by unfold Array.arrW2; rw [w2_eq m c]) (fun j => by unfold Array.arrB2; exact b2_eq m c j)
    (fun k j => by unfold Array.arrW3; rw [w3_eq m c]) (fun j => by unfold Array.arrB3; exact b3_eq m c j)
    (fun k j => by unfold Array.arrW4; rw [w4_eq m c]) (fun j => by unfold Array.arrB4; exact b4_eq m c j)) q

end Cert.KernelIdeal.Bridge

end
-- ==== Proof.Tail.lean ====
/-
  What both programs do with the perceptron's output `h` (one row per node): sum the rows of each graph (a scatter-add
  of the rows at the graph numbers into a zero table), count each graph's nodes the same way, divide the sums by the
  counts (at least one), apply the last dense layer, and divide every row of the outcome by its Euclidean norm (at least
  the literal `1e-12`). `tail` is that map, once; the reference's result is `tail` of its perceptron output.
-/
import proofs.«120022_j45045617000801_1_alg».proof.Proof.Gen.ReferenceIdeal.Read

set_option maxRecDepth 16384

noncomputable section

namespace Cert.ReferenceIdeal.Tail

open Idealize.ShloMosaic Cert.ReferenceIdeal Cert.ReferenceIdeal.Gen Cert.ReferenceIdeal.Read

/-- Mean-pool the rows of `h` per graph, apply the last dense layer, normalise each row. -/
def tail (h : FVec Ideal S50000x512 .f32) (x2 : IVec S50000 32) (x11 : FVec Ideal S512x256 .f32)
    (x12 : FVec Ideal S256 .f32) : FVec Ideal S512x256 .f32 :=
  let sums : FVec Ideal S512x512 .f32 := Host.scatterAdd (F := Ideal) (φ := .f32) scatter_S512x512_S50000x1_S50000x512_1_0_0_1
    (broadcastInDim S512x512 ![] bcast_S_S512x512 (constant (F := Ideal) S_ .f32 0x00000000#32))
    (broadcastInDim S50000x1 ![0] bcast_S50000_S50000x1_0 x2) h
  let cnt : FVec Ideal S512x1 .f32 := Host.scatterAdd (F := Ideal) (φ := .f32) scatter_S512x1_S50000x1_S50000x1_1_0_0_1
    (broadcastInDim S512x1 ![] bcast_S_S512x1 (constant (F := Ideal) S_ .f32 0x00000000#32))
    (broadcastInDim S50000x1 ![0] bcast_S50000_S50000x1_0 x2)
    (broadcastInDim S50000x1 ![] bcast_S_S50000x1 (constant (F := Ideal) S_ .f32 0x3F800000#32))
  let den : FVec Ideal S512x512 .f32 := broadcastInDim S512x512 ![0, 1] bcast_S512x1_S512x512_0_1
    (maximumf cnt (broadcastInDim S512x1 ![] bcast_S_S512x1 (constant (F := Ideal) S_ .f32 0x3F800000#32)))
  let pooled : FVec Ideal S512x512 .f32 := Host.divf (F := Ideal) (φ := .f32) sums den
  let out : FVec Ideal S512x256 .f32 := addf
    (Host.dotGeneral (F := Ideal) (φ₁ := .f32) (φ₂ := .f32) dot_S512x512_S512x256_S512x256_1_0_0_1_n_n none pooled x11)
    (broadcastInDim S512x256 ![0, 1] bcast_S1x256_S512x256_0_1 (broadcastInDim S1x256 ![1] bcast_S256_S1x256_1 x12))
  let nrm : FVec Ideal S512x1 .f32 := Host.sqrt (F := Ideal) (φ := .f32) (broadcastInDim S512x1 ![0] bcast_S512_S512x1_0
    (Host.reduceAdd (F := Ideal) (mulf out out) (constant (F := Ideal) S_ .f32 0x00000000#32) reducesTo_S512x256_S512_d1 h_S_))
  Host.divf (F := Ideal) (φ := .f32) out (broadcastInDim S512x256 ![0, 1] bcast_S512x1_S512x256_0_1
    (maximumf nrm (broadcastInDim S512x1 ![] bcast_S_S512x1 (constant (F := Ideal) S_ .f32 0x2B8CBCCC#32))))

/-- The reference's result is `tail` of its perceptron output. -/
theorem ref_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x256, .f32⟩ : BufTy).Contents (Elt Ideal)) (x12 : (⟨S256, .f32⟩ : BufTy).Contents (Elt Ideal)) :
    val_main_v59 (F := Ideal) x0 x1 x2 x3 x4 x5 x6 x7 x8 x9 x10 x11 x12
      = tail (val_main_v39 (F := Ideal) x0 x1 x3 x4 x5 x6 x7 x8 x9 x10) x2 x11 x12 := rfl

end Cert.ReferenceIdeal.Tail

end
-- ==== Proof.KernelTail.lean ====
/-
  The kernel's last lines, after its region: the same pooling, last dense layer and row normalisation as the reference's,
  applied to the array the region left — `Cert.ReferenceIdeal.Tail.tail` of that array, the graph numbers, the last
  weight table and its bias.
-/
import proofs.«120022_j45045617000801_1_alg».proof.Proof.Gen.KernelIdeal.Frame
import proofs.«120022_j45045617000801_1_alg».proof.Proof.Tail

set_option maxRecDepth 16384

noncomputable section

open Idealize.ShloMosaic Idealize.ShloMosaic.TcCoe Idealize.SL.Sem Idealize.ShloMosaic.StableHlo
open Idealize.ShloMosaic.Pipeline (Dat)

namespace Cert.KernelIdeal.KTail

open Cert.KernelIdeal Cert.KernelIdeal.Gen

variable (m : (ℓ : Loc nD τ sig) → Buf (Elt Ideal) ℓ)

/-- The kernel's result buffer after the run's last lines is `tail` of the region's output array. -/
theorem ker_tail (c : Dev nD) :
    Pipeline.afterTail₀ cfgs (dats m) 0 (V0 m) [hostOps1, hostOps1_1, hostOps1_2] c main_v42
      = Cert.ReferenceIdeal.Tail.tail ((dats m 0 c).arrAt 10 cfg0.N) (m ((c : Thread nD τ).loc main_arg2))
          (m ((c : Thread nD τ).loc main_arg11)) (m ((c : Thread nD τ).loc main_arg12)) := by
  unfold Pipeline.afterTail₀
  simp only [hostOps1, hostOps1_1, hostOps1_2, List.flatten_cons, List.flatten_nil, List.append_nil, List.cons_append, List.nil_append]
  after_results_simp
  have hA : Pipeline.withArrays (cfgs 0).spec c (V0 m c) (fun w => (dats m 0 c).arrAt w (cfgs 0).N) (Proc.devRef .tc main_v22)
      = (dats m 0 c).arrAt 10 cfg0.N := Pipeline.withArrays_arr spec0 launch0.win.arr_inj c _ _ 10
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h11 : Pipeline.withArrays (cfgs 0).spec c (V0 m c) (fun w => (dats m 0 c).arrAt w (cfgs 0).N) (Proc.devRef .tc main_arg11)
      = m ((c : Thread nD τ).loc main_arg11) :=
    (Pipeline.withArrays_of_ne _ c (V0 m c) _ main_arg11 (by exact (by decide : ∀ w, Pipeline.arrRef spec0 w ≠ main_arg11))).trans (V_main_arg11 m c)
  have h12 : Pipeline.withArrays (cfgs 0).spec c (V0 m c) (fun w => (dats m 0 c).arrAt w (cfgs 0).N) (Proc.devRef .tc main_arg12)
      = m ((c : Thread nD τ).loc main_arg12) :=
    (Pipeline.withArrays_of_ne _ c (V0 m c) _ main_arg12 (by exact (by decide : ∀ w, Pipeline.arrRef spec0 w ≠ main_arg12))).trans (V_main_arg12 m c)
  rw [hA, h2, h11, h12]
  rfl

end Cert.KernelIdeal.KTail

end
-- ==== Proof.KernelRun.lean ====
/-
  The kernel's whole run, read: its result buffer ends at the pooling-and-normalising tail of the reference's perceptron
  output of the arguments, and its argument arrays end unchanged. The region's output array is that perceptron output
  (the blocks tile the array; each is the perceptron of its rows), the lines after the region are the tail.
-/
import proofs.«120022_j45045617000801_1_alg».proof.Proof.Bridge
import proofs.«120022_j45045617000801_1_alg».proof.Proof.KernelTail

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-- The result both programs reach, as one term of the kernel's argument arrays. -/
def result (c : Dev nD) : Buf (Elt Ideal) ((c.tc : Thread nD τ).loc main_v42) :=
  Cert.ReferenceIdeal.Tail.tail
    (Cert.ReferenceIdeal.Read.val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (m ((c : Thread nD τ).loc main_arg2)) (m ((c : Thread nD τ).loc main_arg11)) (m ((c : Thread nD τ).loc main_arg12))

/-- The result buffer after the lines that follow the region. -/
theorem result_eq (c : Dev nD) :
    Pipeline.afterTail₀ cfgs (dats m) 0 (V0 m) [hostOps1, hostOps1_1, hostOps1_2] c main_v42 = result m c := by
  rw [Cert.KernelIdeal.KTail.ker_tail m c, Cert.KernelIdeal.Array.final m c, Cert.KernelIdeal.Bridge.G_eq m c]
  rfl

/-- Every weakly fair execution of the kernel program terminates with the result buffer at `result` and the argument
    arrays as launched. -/
theorem run : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v42 (Pipeline.mem_restRefs_of main_v42 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Whole

end
-- ==== Proof.lean ====
/-
  The certificate of a graph network layer: node features plus their neighbourhood sums go through a four-layer
  perceptron, the outcome is mean-pooled per graph, sent through a last dense layer and normalised row by row. The kernel
  program computes the perceptron in a region that works on blocks of 2000 nodes, with the weight tables narrowed to a
  short float format on the way in; the reference computes it on the whole array. On extended reals the narrowing is the
  identity and the reference's factor `1.0` is one, so block by block the kernel's perceptron is the reference's, row for
  row; the operations before (gather, scatter-add) and after (pooling, last layer, normalisation) are the same operations
  in the same order in both programs. No finiteness of the inputs is used.
-/
import proofs.«120022_j45045617000801_1_alg».proof.Defs
import proofs.«120022_j45045617000801_1_alg».proof.Proof.Gen.Kernel
import proofs.«120022_j45045617000801_1_alg».proof.Proof.Gen.Kernel.Frame
import proofs.«120022_j45045617000801_1_alg».proof.Proof.Gen.KernelIdeal
import proofs.«120022_j45045617000801_1_alg».proof.Proof.Gen.KernelIdeal.Frame
import proofs.«120022_j45045617000801_1_alg».proof.Proof.Gen.ReferenceIdeal
import proofs.«120022_j45045617000801_1_alg».proof.Proof.Gen.Pre_finite_inputs
import proofs.«120022_j45045617000801_1_alg».proof.Proof.Gen.ReferenceIdeal.Run
import proofs.«120022_j45045617000801_1_alg».proof.Proof.Gen.ReferenceIdeal.Read
import proofs.«120022_j45045617000801_1_alg».proof.Proof.KernelRun
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel program on extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same result: the kernel's is the pooling tail of
    the reference's perceptron output of ITS arguments, the reference's the same term of its own, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.Tail.ref_eq]
  obtain ⟨e0, e1, e2, e3, e4, e5, e6, e7, e8, e9, e10, e11, e12⟩ := hagree c
  rw [e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
